-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S16x4096 : Shape := ⟨2, ![16, 4096]⟩
abbrev S16 : Shape := ⟨1, ![16]⟩
abbrev S4096 : Shape := ⟨1, ![4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S16 : S_.BroadcastsInDim S16 (![] : Fin 0 → Fin S16.rank)
  reducesTo_S16_S_d0 : S16.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S16 .f32) (main_arg5 : FVec F S4096 .f32) (main_arg6 : FVec F S4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S32768x4096 .f32) (main_arg1 : FVec F S16x4096 .f32) (main_arg2 : FVec F S16 .f32) (main_arg3 : FVec F S16x4096 .f32) (main_arg4 : FVec F S16 .f32) (main_arg5 : FVec F S4096 .f32) (main_arg6 : FVec F S4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_arg5 main_arg6 main_v13 main_v16
-- ==== Kernel.lean ====
abbrev S32768x4096 : Shape := ⟨2, ![32768, 4096]⟩
abbrev S16x4096 : Shape := ⟨2, ![16, 4096]⟩
abbrev S16 : Shape := ⟨1, ![16]⟩
abbrev S4096 : Shape := ⟨1, ![4096]⟩
abbrev S32x4096 : Shape := ⟨2, ![32, 4096]⟩
abbrev S32 : Shape := ⟨1, ![32]⟩
abbrev S1x32 : Shape := ⟨2, ![1, 32]⟩
abbrev S1x4096 : Shape := ⟨2, ![1, 4096]⟩
abbrev S512x4096 : Shape := ⟨2, ![512, 4096]⟩
abbrev S512x32 : Shape := ⟨2, ![512, 32]⟩
abbrev S512x16 : Shape := ⟨2, ![512, 16]⟩
abbrev S512 : Shape := ⟨1, ![512]⟩
abbrev S512x1 : Shape := ⟨2, ![512, 1]⟩

abbrev nBuf : Space → Nat
  | .hbm => 13
  | .vmem => 8
  | .smem => 0
  | _ => 0

abbrev bufTy : (tb : Table) → Fin (tcTables nBuf tb) → BufTy
  | .hbm, ⟨0, _⟩ => ⟨S32768x4096, .f32⟩
  | .hbm, ⟨1, _⟩ => ⟨S16x4096, .f32⟩
  | .hbm, ⟨2, _⟩ => ⟨S16, .f32⟩
  | .hbm, ⟨3, _⟩ => ⟨S16x4096, .f32⟩
  | .hbm, ⟨4, _⟩ => ⟨S16, .f32⟩
  | .hbm, ⟨5, _⟩ => ⟨S4096, .f32⟩
  | .hbm, ⟨6, _⟩ => ⟨S4096, .f32⟩
  | .hbm, ⟨7, _⟩ => ⟨S32x4096, .f32⟩
  | .hbm, ⟨8, _⟩ => ⟨S32, .f32⟩
  | .hbm, ⟨9, _⟩ => ⟨S1x32, .f32⟩
  | .hbm, ⟨10, _⟩ => ⟨S1x4096, .f32⟩
  | .hbm, ⟨11, _⟩ => ⟨S1x4096, .f32⟩
  | .hbm, ⟨12, _⟩ => ⟨S32768x4096, .f32⟩
  | .local _ .vmem, ⟨0, _⟩ => ⟨S512x4096, .f32⟩
  | .local _ .vmem, ⟨1, _⟩ => ⟨S512x4096, .f32⟩
  | .local _ .vmem, ⟨2, _⟩ => ⟨S32x4096, .f32⟩
  | .local _ .vmem, ⟨3, _⟩ => ⟨S1x32, .f32⟩
  | .local _ .vmem, ⟨4, _⟩ => ⟨S1x4096, .f32⟩
  | .local _ .vmem, ⟨5, _⟩ => ⟨S1x4096, .f32⟩
  | .local _ .vmem, ⟨6, _⟩ => ⟨S512x4096, .f32⟩
  | .local _ .vmem, ⟨7, _⟩ => ⟨S512x4096, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S16x4096_S16x4096_S32x4096_d0 : Shape.Concatenates [S16x4096, S16x4096] S32x4096 0
  concatenates_S16_S16_S32_d0 : Shape.Concatenates [S16, S16] S32 0
  shapeCasts_S32_S1x32 : S32.ShapeCasts S1x32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  slices_S512x32_o0_0_S512x16 : S512x32.Slices ![0, 0] S512x16
  slices_S512x32_o0_16_S512x16 : S512x32.Slices ![0, 16] S512x16
  reduces_S512x16_S512 : S512x16.Reduces [1] S512
  shapeCasts_S512_S512x1 : S512.ShapeCasts S512x1
  broadcasts_S512x1_S512x4096 : S512x1.Broadcasts S512x4096
  reduces_S512x4096_S512 : S512x4096.Reduces [1] S512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  dot_S512x4096_S32x4096_S512x32_1_1_0_0_n_n_wf : DotDims.WF S512x4096 S32x4096 S512x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S32x4096.size a
  hwx0_1 : ∀ i : grid0.Coords, EltTy.bits .f32 = 32 ∨ (Rect.block (s := S32x4096) S32x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S32768x4096.size a
  hwx0_5 : ∀ i : grid0.Coords, EltTy.bits .f32 = 32 ∨ (Rect.block (s := S32768x4096) S512x4096.size (cc0_transform_5 i) (hinb0_5 i)).WholeWords (EltTy.packing .f32)

variable [Facts₀]

def dot_S512x4096_S32x4096_S512x32_1_1_0_0_n_n : DotDims S512x4096 S32x4096 S512x32 where
  lhsContracting := [1]
  rhsContracting := [1]
  lhsNonContracting := [0]
  rhsNonContracting := [0]
  lhsBatch := []
  rhsBatch := []
  wf := dot_S512x4096_S32x4096_S512x32_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S16x4096 : Shape := ⟨2, ![16, 4096]⟩
abbrev S16 : Shape := ⟨1, ![16]⟩
abbrev S4096 : Shape := ⟨1, ![4096]⟩
abbrev S4096x16 : Shape := ⟨2, ![4096, 16]⟩
abbrev S32768x16 : Shape := ⟨2, ![32768, 16]⟩
abbrev S1x16 : Shape := ⟨2, ![1, 16]⟩
abbrev S_ : Shape := ⟨0, ![]⟩
abbrev S32768 : Shape := ⟨1, ![32768]⟩
abbrev S32768x1 : Shape := ⟨2, ![32768, 1]⟩
abbrev S1x4096 : Shape := ⟨2, ![1, 4096]⟩

abbrev nBuf : Space → Nat
  | .hbm => 90
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S16x4096, .f32⟩
  | .hbm, ⟨2, _⟩ => ⟨S16, .f32⟩
  | .hbm, ⟨3, _⟩ => ⟨S16x4096, .f32⟩
  | .hbm, ⟨4, _⟩ => ⟨S16, .f32⟩
  | .hbm, ⟨5, _⟩ => ⟨S4096, .f32⟩
  | .hbm, ⟨6, _⟩ => ⟨S4096, .f32⟩
  | .hbm, ⟨7, _⟩ => ⟨S4096x16, .f32⟩
  | .hbm, ⟨8, _⟩ => ⟨S32768x16, .f32⟩
  | .hbm, ⟨9, _⟩ => ⟨S1x16, .f32⟩
  | .hbm, ⟨10, _⟩ => ⟨S32768x16, .f32⟩
  | .hbm, ⟨11, _⟩ => ⟨S32768x16, .f32⟩
  | .hbm, ⟨12, _⟩ => ⟨S32768x16, .f32⟩
  | .hbm, ⟨13, _⟩ => ⟨S_, .f32⟩
  | .hbm, ⟨14, _⟩ => ⟨S32768x16, .f32⟩
  | .hbm, ⟨15, _⟩ => ⟨S32768x16, .f32⟩
  | .hbm, ⟨16, _⟩ => ⟨S4096x16, .f32⟩
  | .hbm, ⟨17, _⟩ => ⟨S32768x16, .f32⟩
  | .hbm, ⟨18, _⟩ => ⟨S1x16, .f32⟩
  | .hbm, ⟨19, _⟩ => ⟨S32768x16, .f32⟩
  | .hbm, ⟨20, _⟩ => ⟨S32768x16, .f32⟩
  | .hbm, ⟨21, _⟩ => ⟨S32768x16, .f32⟩
  | .hbm, ⟨22, _⟩ => ⟨S_, .f32⟩
  | .hbm, ⟨23, _⟩ => ⟨S32768x16, .f32⟩
  | .hbm, ⟨24, _⟩ => ⟨S32768x16, .f32⟩
  | .hbm, ⟨25, _⟩ => ⟨S32768x16, .f32⟩
  | .hbm, ⟨26, _⟩ => ⟨S32768x16, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x1, .f32⟩
  | .hbm, ⟨41, _⟩ => ⟨S32768x1, .i1⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S32768x4096, .f32⟩
  | .hbm, ⟨54, _⟩ => ⟨S32768x4096, .f32⟩
  | .hbm, ⟨55, _⟩ => ⟨S32768x4096, .f32⟩
  | .hbm, ⟨56, _⟩ => ⟨S32768x4096, .f32⟩
  | .hbm, ⟨57, _⟩ => ⟨S_, .f32⟩
  | .hbm, ⟨58, _⟩ => ⟨S32768x4096, .f32⟩
  | .hbm, ⟨59, _⟩ => ⟨S32768x4096, .f32⟩
  | .hbm, ⟨60, _⟩ => ⟨S_, .f32⟩
  | .hbm, ⟨61, _⟩ => ⟨S32768, .f32⟩
  | .hbm, ⟨62, _⟩ => ⟨S32768x1, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S32768x4096, .f32⟩
  | .hbm, ⟨67, _⟩ => ⟨S32768x4096, .f32⟩
  | .hbm, ⟨68, _⟩ => ⟨S32768x4096, .f32⟩
  | .hbm, ⟨69, _⟩ => ⟨S_, .f32⟩
  | .hbm, ⟨70, _⟩ => ⟨S32768, .f32⟩
  | .hbm, ⟨71, _⟩ => ⟨S32768x1, .f32⟩
  | .hbm, ⟨72, _⟩ => ⟨S_, .f32⟩
  | .hbm, ⟨73, _⟩ => ⟨S32768x1, .f32⟩
  | .hbm, ⟨74, _⟩ => ⟨S32768x1, .f32⟩
  | .hbm, ⟨75, _⟩ => ⟨S32768x4096, .f32⟩
  | .hbm, ⟨76, _⟩ => ⟨S32768x4096, .f32⟩
  | .hbm, ⟨77, _⟩ => ⟨S_, .f32⟩
  | .hbm, ⟨78, _⟩ => ⟨S32768x1, .f32⟩
  | .hbm, ⟨79, _⟩ => ⟨S32768x1, .f32⟩
  | .hbm, ⟨80, _⟩ => ⟨S32768x1, .f32⟩
  | .hbm, ⟨81, _⟩ => ⟨S32768x4096, .f32⟩
  | .hbm, ⟨82, _⟩ => ⟨S32768x4096, .f32⟩
  | .hbm, ⟨83, _⟩ => ⟨S1x4096, .f32⟩
  | .hbm, ⟨84, _⟩ => ⟨S32768x4096, .f32⟩
  | .hbm, ⟨85, _⟩ => ⟨S32768x4096, .f32⟩
  | .hbm, ⟨86, _⟩ => ⟨S1x4096, .f32⟩
  | .hbm, ⟨87, _⟩ => ⟨S32768x4096, .f32⟩
  | .hbm, ⟨88, _⟩ => ⟨S32768x4096, .f32⟩
  | .hbm, ⟨89, _⟩ => ⟨S32768x4096, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_v24 : Ref sig .tc := ⟨.hbm, 49, rfl⟩
abbrev main_cst_4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_cst_6 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_10 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩

abbrev nD : Nat := 1
abbrev τ : Topo := Topo.v7x

variable {F : FTy → Type} [FloatOps F]

class Facts₀ : Prop where
  transposes_S16x4096_S4096x16_1_0 : S16x4096.Transposes [1, 0] S4096x16
  bcast_S16_S1x16_1 : S16.BroadcastsInDim S1x16 (![1] : Fin 1 → Fin S1x16.rank)
  bcast_S1x16_S32768x16_0_1 : S1x16.BroadcastsInDim S32768x16 (![0, 1] : Fin 2 → Fin S32768x16.rank)
  bcast_S_S32768x16 : S_.BroadcastsInDim S32768x16 (![] : Fin 0 → Fin S32768x16.rank)
  reducesTo_S32768x16_S32768_d1 : S32768x16.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x4096_0_1 : S32768x1.BroadcastsInDim S32768x4096 (![0, 1] : Fin 2 → Fin S32768x4096.rank)
  bcast_S_S32768x4096 : S_.BroadcastsInDim S32768x4096 (![] : Fin 0 → Fin S32768x4096.rank)
  reducesTo_S32768x4096_S32768_d1 : S32768x4096.ReducesTo [1] S32768
  bcast_S4096_S1x4096_1 : S4096.BroadcastsInDim S1x4096 (![1] : Fin 1 → Fin S1x4096.rank)
  bcast_S1x4096_S32768x4096_0_1 : S1x4096.BroadcastsInDim S32768x4096 (![0, 1] : Fin 2 → Fin S32768x4096.rank)
  dot_S32768x4096_S4096x16_S32768x16_1_0_0_1_n_n_wf : DotDims.WF S32768x4096 S4096x16 S32768x16 [1] [0] [0] [1] [] []

variable [Facts₀]

def dot_S32768x4096_S4096x16_S32768x16_1_0_0_1_n_n : DotDims S32768x4096 S4096x16 S32768x16 where
  lhsContracting := [1]
  rhsContracting := [0]
  lhsNonContracting := [0]
  rhsNonContracting := [1]
  lhsBatch := []
  rhsBatch := []
  wf := dot_S32768x4096_S4096x16_S32768x16_1_0_0_1_n_n_wf

class Facts : Prop extends Facts₀ where

variable [Facts]
-- ==== Proof.Spec.lean ====
/-
  One row of the computation, on the extended reals.

  For a row `xr` of the input (4096 entries), sixteen weight rows `wr p`, `wo p` with biases `br p`, `bo p`:
    the two logits of plane `p` are  lr p = ⟨xr, wr p⟩ + br p  and  lo p = ⟨xr, wo p⟩ + bo p;
    the phase alignment of plane `p` is  cos (tanh (lr p) · π − tanh (lo p) · π)   (π the f32 literal);
    `s` is the sum of the sixteen alignments, `s / 16` their mean;
    the gain is softplus (s / 16 + 1/2), spelt as log (e^a + e^0) is computed stably:
        max a 0 + log1p (exp (0 − |a − 0|)),  guarded by a comparison a − 0 ≠ a − 0 that no extended real satisfies;
    the row before normalisation is  o q = xr q · s · gain / 16;
    the result is  xr q + ((o q − μ) · rsqrt (σ² + ε) · γ q + β q)  with μ, σ² the mean and the mean squared
    deviation of `o` over its 4096 entries.
  Every literal is kept as the word that both programs print; none is evaluated except the zero word.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The inner product of a row with a weight row. -/
def dotRow (xr w : Fin 4096 → EReal) : EReal := ∑ k : Fin 4096, xr k * w k

/-- The phase alignment of one plane from its two logits: cos (tanh lr · π − tanh lo · π). -/
def align (lr lo : EReal) : EReal :=
  Ideal.cos (Ideal.tanh lr * Ideal.ofBits .f32 0x40490FDB#32 - Ideal.tanh lo * Ideal.ofBits .f32 0x40490FDB#32)

/-- The sum over the sixteen planes of their phase alignments. -/
def alignSum (xr : Fin 4096 → EReal) (wr wo : Fin 16 → Fin 4096 → EReal) (br bo : Fin 16 → EReal) : EReal :=
  ∑ p : Fin 16, align (dotRow xr (wr p) + br p) (dotRow xr (wo p) + bo p)

/-- softplus as log (e^a + e^0) is computed: max a 0 + log1p (exp (0 − |a − 0|)); the guard `a − 0 ≠ a − 0` picks
    `a + 0` and never holds. -/
def softplus (a : EReal) : EReal :=
  Scalar.select (Ideal.cmp .one (a - Ideal.ofBits .f32 0x00000000#32) (a - Ideal.ofBits .f32 0x00000000#32))
    (a + Ideal.ofBits .f32 0x00000000#32)
    (max a (Ideal.ofBits .f32 0x00000000#32)
      + Ideal.log1p (Ideal.exp (Ideal.ofBits .f32 0x00000000#32
          - max (a - Ideal.ofBits .f32 0x00000000#32) (-(a - Ideal.ofBits .f32 0x00000000#32)))))

/-- The gain of a row from the sum of its alignments: softplus (s / 16 + 1/2). -/
def gain (s : EReal) : EReal :=
  softplus (Ideal.div s (Ideal.ofBits .f32 0x41800000#32) + Ideal.ofBits .f32 0x3F000000#32)

/-- The row before normalisation: xr q · s · gain s / 16. -/
def rowOut (xr : Fin 4096 → EReal) (s : EReal) (q : Fin 4096) : EReal :=
  Ideal.div (xr q * s * gain s) (Ideal.ofBits .f32 0x41800000#32)

/-- The mean of 4096 entries. -/
def mean (f : Fin 4096 → EReal) : EReal := Ideal.div (∑ q : Fin 4096, f q) (Ideal.ofBits .f32 0x45800000#32)

/-- The mean squared deviation of 4096 entries from their mean. -/
def variance (f : Fin 4096 → EReal) : EReal := mean fun q => (f q - mean f) * (f q - mean f)

/-- The normalised row added back to the input: xr q + ((o q − μ) · rsqrt (σ² + ε) · γ q + β q). -/
def rowRes (xr : Fin 4096 → EReal) (s : EReal) (g b : Fin 4096 → EReal) (q : Fin 4096) : EReal :=
  xr q + ((rowOut xr s q - mean (rowOut xr s))
            * Ideal.rsqrt (variance (rowOut xr s) + Ideal.ofBits .f32 0x3727C5AC#32) * g q + b q)

/-- The whole result array as one function of the seven argument arrays. -/
def G (x : (⟨2, ![32768, 4096]⟩ : Shape).Idx → EReal)
    (Wr : (⟨2, ![16, 4096]⟩ : Shape).Idx → EReal) (br : (⟨1, ![16]⟩ : Shape).Idx → EReal)
    (Wo : (⟨2, ![16, 4096]⟩ : Shape).Idx → EReal) (bo : (⟨1, ![16]⟩ : Shape).Idx → EReal)
    (ga be : (⟨1, ![4096]⟩ : Shape).Idx → EReal) : (⟨2, ![32768, 4096]⟩ : Shape).Idx → EReal := fun i =>
  rowRes (fun k => x (ix2 (i 0) k))
    (alignSum (fun k => x (ix2 (i 0) k)) (fun p k => Wr (ix2 p k)) (fun p k => Wo (ix2 p k))
      (fun p => br (ix1 p)) (fun p => bo (ix1 p)))
    (fun k => ga (ix1 k)) (fun k => be (ix1 k)) (i 1)

/-- Negation is subtraction from the zero word: the host's `negate` against the kernel's `0 − y`. -/
theorem neg_eq_zero_sub (y : EReal) : -y = Ideal.ofBits .f32 0x00000000#32 - y := by
  rw [Ideal.ofBits_zero_f32, zero_sub]

/-- A sum started from the zero word is the sum: the host's reduction against the kernel's lane reduction. -/
theorem zero_add_sum (y : EReal) : Ideal.ofBits .f32 0x00000000#32 + y = y := by
  rw [Ideal.ofBits_zero_f32, zero_add]

/-- The unordered and the ordered "not equal" are one comparison on the extended reals. -/
theorem cmp_une_eq_one (x y : EReal) : Ideal.cmp .une x y = Ideal.cmp .one x y := rfl

end Cert.Spec

end
-- ==== Proof.LibRowForms.lean ====
/-
  Reading the rank-2 "keepdims" layout operations at an index built from coordinates.

  A lane reduction with keepdims leaves a column: a vector over [n] cast to [n, 1], then broadcast along the lanes to
  [n, m]; a bias row over [1, m] is broadcast down the rows to [n, m]. Each lemma below reads one such operation at
  `ix2 r q` as its operand at the coordinates that entry came from, and the lane sum itself as a sum over the lane
  coordinate. All are stated at arbitrary extents and for any proof of the operation's shape fact.
-/
import Idealize.ShloMosaic.PureOps.Ideal.Laws
import Idealize.ShloMosaic.Lib.ValueIdx
import Idealize.ShloMosaic.Lib.Pipeline.Value

noncomputable section

namespace Cert.LibRowForms

open Idealize.ShloMosaic Idealize.ShloMosaic.ValueIdx

variable {α : Type} {n m : Nat}

/-- A vector over [n] cast to a column [n, 1]: entry (r, 0) is entry r. -/
theorem shapeCast_col_apply (v : (⟨1, ![n]⟩ : Shape).Idx → α) (h : (⟨1, ![n]⟩ : Shape).ShapeCasts ⟨2, ![n, 1]⟩)
    (r : Fin n) (z : Fin 1) : shapeCast ⟨2, ![n, 1]⟩ v h (ix2 r z) = v (ix1 r) :=
  shapeCast_apply v h (ix2 r z) (ix1 r) (by
    rw [Shape.rowMajor_val_one, Shape.rowMajor_val_two]
    show r.val = r.val * 1 + z.val
    have := z.isLt
    omega)

/-- A column [n, 1] broadcast along the lanes to [n, m]: entry (r, q) is the column's entry (r, 0). -/
theorem broadcastTo_col_apply (v : (⟨2, ![n, 1]⟩ : Shape).Idx → α)
    (h : (⟨2, ![n, 1]⟩ : Shape).Broadcasts ⟨2, ![n, m]⟩) (r : Fin n) (q : Fin m) :
    broadcastTo ⟨2, ![n, m]⟩ v h (ix2 r q) = v (ix2 r 0) :=
  broadcastTo_apply v h (ix2 r q) (ix2 r 0) (fun a => match a with
    | ⟨0, _⟩ => by
        show r.val = (if n = 1 then 0 else r.val)
        have := r.isLt
        split <;> omega
    | ⟨1, _⟩ => by
        show 0 = (if (1 : Nat) = 1 then 0 else q.val)
        rw [if_pos rfl])

/-- A row [1, m] broadcast down the rows to [n, m]: entry (r, q) is the row's entry (0, q). -/
theorem broadcastTo_row_apply (v : (⟨2, ![1, m]⟩ : Shape).Idx → α)
    (h : (⟨2, ![1, m]⟩ : Shape).Broadcasts ⟨2, ![n, m]⟩) (r : Fin n) (q : Fin m) :
    broadcastTo ⟨2, ![n, m]⟩ v h (ix2 r q) = v (ix2 0 q) :=
  broadcastTo_apply v h (ix2 r q) (ix2 0 q) (fun a => match a with
    | ⟨0, _⟩ => by
        show 0 = (if (1 : Nat) = 1 then 0 else r.val)
        rw [if_pos rfl]
    | ⟨1, _⟩ => by
        show q.val = (if m = 1 then 0 else q.val)
        have := q.isLt
        split <;> omega)

/-- A shape cast between equal shapes is the identity at every index. -/
theorem shapeCast_same_apply {s : Shape} (v : s.Idx → α) (h : s.ShapeCasts s) (i : s.Idx) : shapeCast s v h i = v i :=
  congrFun (shapeCast_self v h) i

/-- The sum over the lanes of an [n, m] vector of extended reals, read at row r: the sum over the lane coordinate. -/
theorem laneSum_apply {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (r : Fin n) :
    multiReduction .add [1] ⟨1, ![n]⟩ src acc h hφ hacc (ix1 r) = ∑ k : Fin m, src (ix2 r k) :=
  (Ideal.multiReduction_add_single src acc h hφ hacc (ix1 r)).trans
    (Finset.sum_congr rfl fun k _ => congrArg src (funext fun c => Fin.ext (by
      match c with
      | ⟨0, _⟩ => rfl
      | ⟨1, _⟩ => rfl)))

end Cert.LibRowForms

end
-- ==== Proof.KernelRow.lean ====
/-
  The first half of the kernel's body at one entry of its tile, on the extended reals.

  The body multiplies the [512, 4096] tile of the input by the stacked [32, 4096] weights (contracting the 4096 axis of
  both), adds the stacked bias row, splits the 32 logits of a row into the first and the last sixteen, takes the
  sixteen phase alignments and sums them over the lanes, and scales the tile by that sum and by the gain. Read at the
  entry (r, q) of the tile this is `rowOut` of row r of the tile: the matrix product is a sum over the contracted
  coordinate, the two slices read the logits at p and at 16 + p, the keepdims column reads at (r, 0).
-/
import proofs.«103125_j3195455668481_2_alg».proof.Proof.Gen.KernelIdeal.Skeleton
import proofs.«103125_j3195455668481_2_alg».proof.Proof.Spec
import proofs.«103125_j3195455668481_2_alg».proof.Proof.LibRowForms

noncomputable section

namespace Cert.KernelIdeal.Row

open Cert.KernelIdeal Cert.KernelIdeal.Gen Idealize.ShloMosaic Idealize.ShloMosaic.ValueIdx Cert.Spec Cert.LibRowForms

/-- The contraction of the tile with the stacked weights: both operands are contracted along their 4096 axis. -/
abbrev D := dot_S512x4096_S32x4096_S512x32_1_1_0_0_n_n

theorem lhs0 (i : S512x32.Idx) (q : D.contr.Idx) : (D.lhsIdx i q 0).val = (i 0).val := by
  first
    | rfl
    | (unfold DotDims.lhsIdx
       rw [dif_neg (show ¬(0 : Fin S512x4096.rank) ∈ D.lhsBatch by decide),
         dif_pos (show (0 : Fin S512x4096.rank) ∈ D.lhsNonContracting by decide)]
       rfl)

theorem lhs1 (i : S512x32.Idx) (q : D.contr.Idx) : (D.lhsIdx i q 1).val = (q ⟨0, by decide⟩).val :=
  D.lhsIdx_val_of_single rfl i q

theorem rhs0 (i : S512x32.Idx) (q : D.contr.Idx) : (D.rhsIdx i q 0).val = (i 1).val := by
  first
    | rfl
    | (unfold DotDims.rhsIdx
       rw [dif_neg (show ¬(0 : Fin S32x4096.rank) ∈ D.rhsBatch by decide),
         dif_pos (show (0 : Fin S32x4096.rank) ∈ D.rhsNonContracting by decide)]
       rfl)

theorem rhs1 (i : S512x32.Idx) (q : D.contr.Idx) : (D.rhsIdx i q 1).val = (q ⟨0, by decide⟩).val :=
  D.rhsIdx_val_of_single rfl i q

/-- The matrix product into a zero accumulator, at (r, p): the sum over k of tile (r, k) times weights (p, k). -/
theorem matmul_at (A : FVec Ideal S512x4096 .f32) (B : FVec Ideal S32x4096 .f32) (r : Fin 512) (p : Fin 32) :
    matmul D none A B (constant S512x32 .f32 0x00000000#32) (ix2 r p) = ∑ k : Fin 4096, A (ix2 r k) * B (ix2 p k) := by
  simp only [matmul]
  rw [Ideal.matmul_constant_zero_apply, ← Equiv.sum_comp (ValueIdx.contrEquiv1 D 4096 rfl rfl).symm]
  refine Finset.sum_congr rfl fun k _ => ?_
  have hk := ValueIdx.contrEquiv1_symm_val D 4096 rfl rfl k
  have el : D.lhsIdx (ix2 r p) ((ValueIdx.contrEquiv1 D 4096 rfl rfl).symm k) = ix2 r k := funext fun a => Fin.ext (by
    match a with
    | ⟨0, _⟩ => exact lhs0 _ _
    | ⟨1, _⟩ => exact (lhs1 _ _).trans hk)
  have er : D.rhsIdx (ix2 r p) ((ValueIdx.contrEquiv1 D 4096 rfl rfl).symm k) = ix2 p k := funext fun a => Fin.ext (by
    match a with
    | ⟨0, _⟩ => exact rhs0 _ _
    | ⟨1, _⟩ => exact (rhs1 _ _).trans hk)
  rw [el, er]

variable (P0 : FVec Ideal S512x4096 .f32) (P1 : FVec Ideal S32x4096 .f32) (P2 : FVec Ideal S1x32 .f32)

/-- The 32 logits of every row of the tile. -/
def logitsV : FVec Ideal S512x32 .f32 :=
  addf (matmul D none P0 (shapeCast S32x4096 P1 shapeCasts_S32x4096_S32x4096) (constant S512x32 .f32 0x00000000#32))
    (broadcastTo S512x32 (shapeCast S1x32 P2 shapeCasts_S1x32_S1x32) broadcasts_S1x32_S512x32)

/-- The sixteen phase alignments of every row from its logits. -/
def alignV (L : FVec Ideal S512x32 .f32) : FVec Ideal S512x16 .f32 :=
  cos (subf
    (mulf (tanh (extractStridedSlice S512x16 ![0, 0] L slices_S512x32_o0_0_S512x16))
      (broadcast S512x16 (Scalar.ofBits .f32 0x40490FDB#32)))
    (mulf (tanh (extractStridedSlice S512x16 ![0, 16] L slices_S512x32_o0_16_S512x16))
      (broadcast S512x16 (Scalar.ofBits .f32 0x40490FDB#32))))

/-- Their sum over the lanes, kept as a column. -/
def sumV (A : FVec Ideal S512x16 .f32) : FVec Ideal S512x1 .f32 :=
  shapeCast S512x1 (multiReduction .add [1] S512 A 0x00000000#32 reduces_S512x16_S512 (.inl rfl) rfl) shapeCasts_S512_S512x1

/-- The gain column from the sum column. -/
def gainV (s : FVec Ideal S512x1 .f32) : FVec Ideal S512x1 .f32 :=
  select
    (cmpf .one
      (subf (addf (divf s (broadcast S512x1 (Scalar.ofBits .f32 0x41800000#32))) (broadcast S512x1 (Scalar.ofBits .f32 0x3F000000#32)))
        (broadcast S512x1 (Scalar.ofBits .f32 0x00000000#32)))
      (subf (addf (divf s (broadcast S512x1 (Scalar.ofBits .f32 0x41800000#32))) (broadcast S512x1 (Scalar.ofBits .f32 0x3F000000#32)))
        (broadcast S512x1 (Scalar.ofBits .f32 0x00000000#32))))
    (addf (addf (divf s (broadcast S512x1 (Scalar.ofBits .f32 0x41800000#32))) (broadcast S512x1 (Scalar.ofBits .f32 0x3F000000#32)))
      (broadcast S512x1 (Scalar.ofBits .f32 0x00000000#32)))
    (addf
      (maximumf (addf (divf s (broadcast S512x1 (Scalar.ofBits .f32 0x41800000#32))) (broadcast S512x1 (Scalar.ofBits .f32 0x3F000000#32)))
        (broadcast S512x1 (Scalar.ofBits .f32 0x00000000#32)))
      (log1p (exp (subf (broadcast S512x1 (Scalar.ofBits .f32 0x00000000#32))
        (absf (subf (addf (divf s (broadcast S512x1 (Scalar.ofBits .f32 0x41800000#32))) (broadcast S512x1 (Scalar.ofBits .f32 0x3F000000#32)))
          (broadcast S512x1 (Scalar.ofBits .f32 0x00000000#32))))))))

/-- The tile scaled by the sum column and the gain column, over sixteen. -/
def outV (s : FVec Ideal S512x1 .f32) : FVec Ideal S512x4096 .f32 :=
  divf (mulf (mulf P0 (broadcastTo S512x4096 s broadcasts_S512x1_S512x4096))
      (broadcastTo S512x4096 (gainV s) broadcasts_S512x1_S512x4096))
    (broadcast S512x4096 (Scalar.ofBits .f32 0x41800000#32))

/-- The printed payload is the composition of the five tiles above. -/
theorem pay2_eq : k0_pay2 (F := Ideal) P0 P1 P2 = outV P0 (sumV (alignV (logitsV P0 P1 P2))) := rfl

/-- A logit at (r, p): the inner product of row r of the tile with weight row p, plus bias p. -/
theorem logitsV_apply (r : Fin 512) (p : Fin 32) :
    logitsV P0 P1 P2 (ix2 r p) = dotRow (fun k => P0 (ix2 r k)) (fun k => P1 (ix2 p k)) + P2 (ix2 0 p) := by
  unfold logitsV dotRow
  show matmul D none P0 (shapeCast S32x4096 P1 shapeCasts_S32x4096_S32x4096) (constant S512x32 .f32 0x00000000#32) (ix2 r p)
      + broadcastTo S512x32 (shapeCast S1x32 P2 shapeCasts_S1x32_S1x32) broadcasts_S1x32_S512x32 (ix2 r p) = _
  rw [shapeCast_self, shapeCast_self, matmul_at, broadcastTo_row_apply]

/-- An alignment at (r, p): from the logits of the row at p and at 16 + p. -/
theorem alignV_apply (L : FVec Ideal S512x32 .f32) (r : Fin 512) (p : Fin 16) :
    alignV L (ix2 r p)
      = align (L (ix2 r ⟨p.val, by have := p.isLt; omega⟩)) (L (ix2 r ⟨16 + p.val, by have := p.isLt; omega⟩)) := by
  have e0 : extractStridedSlice S512x16 ![0, 0] L slices_S512x32_o0_0_S512x16 (ix2 r p)
      = L (ix2 r ⟨p.val, by have := p.isLt; omega⟩) :=
    extractStridedSlice_apply _ L _ (ix2 r p) _ (fun a => match a with
      | ⟨0, _⟩ => by show r.val = 0 + r.val; omega
      | ⟨1, _⟩ => by show p.val = 0 + p.val; omega)
  have e1 : extractStridedSlice S512x16 ![0, 16] L slices_S512x32_o0_16_S512x16 (ix2 r p)
      = L (ix2 r ⟨16 + p.val, by have := p.isLt; omega⟩) :=
    extractStridedSlice_apply _ L _ (ix2 r p) _ (fun a => match a with
      | ⟨0, _⟩ => by show r.val = 0 + r.val; omega
      | ⟨1, _⟩ => by show 16 + p.val = 16 + p.val; rfl)
  unfold alignV align
  show Ideal.cos (Ideal.tanh (extractStridedSlice S512x16 ![0, 0] L slices_S512x32_o0_0_S512x16 (ix2 r p)) * _
      - Ideal.tanh (extractStridedSlice S512x16 ![0, 16] L slices_S512x32_o0_16_S512x16 (ix2 r p)) * _) = _
  rw [e0, e1]
  rfl

/-- The sum column at (r, 0): the sum of the row's sixteen alignments. -/
theorem sumV_apply (A : FVec Ideal S512x16 .f32) (r : Fin 512) : sumV A (ix2 r 0) = ∑ p : Fin 16, A (ix2 r p) := by
  unfold sumV
  refine (shapeCast_col_apply _ shapeCasts_S512_S512x1 r 0).trans ?_
  exact laneSum_apply A 0x00000000#32 reduces_S512x16_S512 (.inl rfl) rfl r

/-- The gain column at an index: softplus (s / 16 + 1/2). -/
theorem gainV_apply (s : FVec Ideal S512x1 .f32) (i : S512x1.Idx) : gainV s i = gain (s i) := rfl

/-- The scaled tile at (r, q). -/
theorem outV_apply (s : FVec Ideal S512x1 .f32) (r : Fin 512) (q : Fin 4096) :
    outV P0 s (ix2 r q) = Ideal.div (P0 (ix2 r q) * s (ix2 r 0) * gain (s (ix2 r 0))) (Ideal.ofBits .f32 0x41800000#32) := by
  unfold outV
  show Ideal.div (P0 (ix2 r q) * broadcastTo S512x4096 s broadcasts_S512x1_S512x4096 (ix2 r q)
      * broadcastTo S512x4096 (gainV s) broadcasts_S512x1_S512x4096 (ix2 r q)) _ = _
  rw [broadcastTo_col_apply s _ r q, broadcastTo_col_apply (gainV s) _ r q, gainV_apply]
  rfl

/-- The sum of the sixteen alignments of row r of the tile, from the stacked weights and biases. -/
def sK (r : Fin 512) : EReal :=
  alignSum (fun k => P0 (ix2 r k))
    (fun p k => P1 (ix2 ⟨p.val, by have := p.isLt; omega⟩ k)) (fun p k => P1 (ix2 ⟨16 + p.val, by have := p.isLt; omega⟩ k))
    (fun p => P2 (ix2 0 ⟨p.val, by have := p.isLt; omega⟩)) (fun p => P2 (ix2 0 ⟨16 + p.val, by have := p.isLt; omega⟩))

/-- THE FIRST HALF AT AN ENTRY: the payload at (r, q) is the un-normalised row of the specification. -/
theorem pay2_apply (r : Fin 512) (q : Fin 4096) :
    k0_pay2 (F := Ideal) P0 P1 P2 (ix2 r q) = rowOut (fun k => P0 (ix2 r k)) (sK P0 P1 P2 r) q := by
  have hs : sumV (alignV (logitsV P0 P1 P2)) (ix2 r 0) = sK P0 P1 P2 r := by
    rw [sumV_apply]
    unfold sK alignSum
    refine Finset.sum_congr rfl fun p _ => ?_
    rw [alignV_apply, logitsV_apply, logitsV_apply]
  rw [pay2_eq, outV_apply, hs]
  rfl

end Cert.KernelIdeal.Row

end
-- ==== Proof.KernelBlock.lean ====
/-
  The kernel's whole body at one entry of its tile, on the extended reals.

  After the scaled tile `o` (the first half of the body) the body normalises each row: the mean of a row is its lane
  sum over 4096, the deviation is the entry less the mean (the mean kept as a column and broadcast along the lanes), the
  variance is the lane sum of the squared deviations over 4096, and the stored entry is
  x + (deviation · rsqrt (variance + ε) · γ + β) with γ and β rows broadcast down the tile. The generated value leg
  gives the stored block as one term over the loads; read at (r, q) that term is `rowRes` of row r.
-/
import proofs.«103125_j3195455668481_2_alg».proof.Proof.Gen.KernelIdeal.Value
import proofs.«103125_j3195455668481_2_alg».proof.Proof.KernelRow

noncomputable section

namespace Cert.KernelIdeal.Block

open Cert.KernelIdeal Cert.KernelIdeal.Gen Idealize.ShloMosaic Idealize.ShloMosaic.ValueIdx Cert.Spec Cert.LibRowForms
open Cert.KernelIdeal.Row

/-- The lane sums of a tile. -/
def laneSumV (v : FVec Ideal S512x4096 .f32) : FVec Ideal S512 .f32 :=
  multiReduction .add [1] S512 v 0x00000000#32 reduces_S512x4096_S512 (.inl rfl) rfl

/-- The deviations of a tile's entries from their row's mean. -/
def devV (v : FVec Ideal S512x4096 .f32) : FVec Ideal S512x4096 .f32 :=
  subf v (broadcastTo S512x4096
    (divf (shapeCast S512x1 (laneSumV v) shapeCasts_S512_S512x1) (broadcast S512x1 (Scalar.ofBits .f32 0x45800000#32)))
    broadcasts_S512x1_S512x4096)

theorem laneSumV_apply (v : FVec Ideal S512x4096 .f32) (r : Fin 512) : laneSumV v (ix1 r) = ∑ k : Fin 4096, v (ix2 r k) :=
  laneSum_apply v 0x00000000#32 reduces_S512x4096_S512 (.inl rfl) rfl r

/-- A deviation at (r, k): the entry less the mean of row r. -/
theorem devV_apply (v : FVec Ideal S512x4096 .f32) (r : Fin 512) (k : Fin 4096) :
    devV v (ix2 r k) = v (ix2 r k) - mean (fun k => v (ix2 r k)) := by
  unfold devV
  show v (ix2 r k) - broadcastTo S512x4096
      (divf (shapeCast S512x1 (laneSumV v) shapeCasts_S512_S512x1) (broadcast S512x1 (Scalar.ofBits .f32 0x45800000#32)))
      broadcasts_S512x1_S512x4096 (ix2 r k) = _
  rw [broadcastTo_col_apply _ _ r k]
  show v (ix2 r k) - Ideal.div (shapeCast S512x1 (laneSumV v) shapeCasts_S512_S512x1 (ix2 r 0)) _ = _
  rw [shapeCast_col_apply _ _ r 0, laneSumV_apply]
  rfl

variable (P0 : FVec Ideal S512x4096 .f32) (P1 : FVec Ideal S32x4096 .f32) (P2 : FVec Ideal S1x32 .f32)
  (P3 P4 : FVec Ideal S1x4096 .f32)

/-- The generated block term, with the scaled tile, its lane sums and its deviations named. -/
theorem E5_form (y : S512x4096.Idx) :
    Value.E5 (F := Ideal) P0 P1 P2 P3 P4 y
      = P0 (Value.ix5_0 y)
        + ((k0_pay2 (F := Ideal) P0 P1 P2 (Value.ix5_1 y)
              - Ideal.div (laneSumV (k0_pay2 (F := Ideal) P0 P1 P2) (Value.ix5_2 y)) (Ideal.ofBits .f32 0x45800000#32))
            * Ideal.rsqrt (Ideal.div
                (laneSumV (mulf (devV (k0_pay2 (F := Ideal) P0 P1 P2)) (devV (k0_pay2 (F := Ideal) P0 P1 P2))) (Value.ix5_3 y))
                (Ideal.ofBits .f32 0x45800000#32) + Ideal.ofBits .f32 0x3727C5AC#32)
            * P3 (Value.ix5_4 y) + P4 (Value.ix5_5 y)) := rfl

/-- THE BODY AT AN ENTRY: the stored block at (r, q) is the specification's row result. -/
theorem E5_apply (r : Fin 512) (q : Fin 4096) :
    Value.E5 (F := Ideal) P0 P1 P2 P3 P4 (ix2 r q)
      = rowRes (fun k => P0 (ix2 r k)) (sK P0 P1 P2 r) (fun k => P3 (ix2 0 k)) (fun k => P4 (ix2 0 k)) q := by
  have i0 : Value.ix5_0 (ix2 r q : S512x4096.Idx) = ix2 r q := funext fun a => Fin.ext (by
    match a with
    | ⟨0, _⟩ => rfl
    | ⟨1, _⟩ => rfl)
  have i1 : Value.ix5_1 (ix2 r q : S512x4096.Idx) = ix2 r q := funext fun a => Fin.ext (by
    match a with
    | ⟨0, _⟩ => rfl
    | ⟨1, _⟩ => rfl)
  have i2 : Value.ix5_2 (ix2 r q : S512x4096.Idx) = ix1 r := funext fun a => Fin.ext (by
    match a with
    | ⟨0, _⟩ => rfl)
  have i3 : Value.ix5_3 (ix2 r q : S512x4096.Idx) = ix1 r := funext fun a => Fin.ext (by
    match a with
    | ⟨0, _⟩ => rfl)
  have i4 : Value.ix5_4 (ix2 r q : S512x4096.Idx) = ix2 0 q := funext fun a => Fin.ext (by
    match a with
    | ⟨0, _⟩ => rfl
    | ⟨1, _⟩ => rfl)
  have i5 : Value.ix5_5 (ix2 r q : S512x4096.Idx) = ix2 0 q := funext fun a => Fin.ext (by
    match a with
    | ⟨0, _⟩ => rfl
    | ⟨1, _⟩ => rfl)
  rw [E5_form, i0, i1, i2, i3, i4, i5, laneSumV_apply, laneSumV_apply]
  simp only [mulf_apply, devV_apply, pay2_apply]
  rfl

theorem hz : (![0, 0] : Fin 2 → Nat) = fun _ => 0 := funext fun a => by fin_cases a <;> rfl

/-- What the body leaves in the output's buffer is the generated block term of the input blocks (each load reads its
    whole block). -/
theorem out0_5_apply (x0 : Vec Ideal S512x4096 .f32) (x1 : Vec Ideal S32x4096 .f32) (x2 : Vec Ideal S1x32 .f32)
    (x3 x4 : Vec Ideal S1x4096 .f32) (y : S512x4096.Idx) :
    out0_5 (F := Ideal) x0 x1 x2 x3 x4 y = Value.E5 (F := Ideal) x0 x1 x2 x3 x4 y := by
  unfold out0_5
  simp only [View.ld_unit_zero (S := S512x4096) hz, View.ld_unit_zero (S := S32x4096) hz,
    View.ld_unit_zero (S := S1x32) hz, View.ld_unit_zero (S := S1x4096) hz]
  exact Value.canon5_eq (F := Ideal) x0 x1 x2 x3 x4 y

/-- So the buffer at (r, q) is the specification's row result of the input blocks. -/
theorem out0_5_at (x0 : FVec Ideal S512x4096 .f32) (x1 : FVec Ideal S32x4096 .f32) (x2 : FVec Ideal S1x32 .f32)
    (x3 x4 : FVec Ideal S1x4096 .f32) (r : Fin 512) (q : Fin 4096) :
    out0_5 (F := Ideal) x0 x1 x2 x3 x4 (ix2 r q)
      = rowRes (fun k => x0 (ix2 r k)) (sK x0 x1 x2 r) (fun k => x3 (ix2 0 k)) (fun k => x4 (ix2 0 k)) q :=
  (out0_5_apply x0 x1 x2 x3 x4 (ix2 r q)).trans (E5_apply x0 x1 x2 x3 x4 r q)

end Cert.KernelIdeal.Block

end
-- ==== Proof.KernelArray.lean ====
/-
  From the kernel's blocks to its whole result array.

  The grid has 64 points; point t reads rows 512·t … 512·t + 511 of the input and writes the same rows of the result,
  while the stacked weights, the stacked bias row and the two LayerNorm rows are whole-array blocks at every point.
  Before the region the host stacks the two weight matrices (rows 0–15 the first, rows 16–31 the second), stacks the
  two bias vectors and lays them out as a row, and lays γ and β out as rows. So what point t writes back is block t of
  the specification's `G` of the seven arguments; the 64 blocks cover the array, and the array after the run is `G`.
-/
import proofs.«103125_j3195455668481_2_alg».proof.Proof.Gen.KernelIdeal.Value
import proofs.«103125_j3195455668481_2_alg».proof.Proof.KernelBlock
import Idealize.ShloMosaic.Lib.StableHlo.Run

noncomputable section

namespace Cert.KernelIdeal.Arr

open Cert.KernelIdeal Cert.KernelIdeal.Gen Idealize.ShloMosaic Idealize.ShloMosaic.TcCoe Idealize.SL.Sem
open Idealize.ShloMosaic.StableHlo Idealize.ShloMosaic.ValueIdx Cert.Spec Cert.KernelIdeal.Row Cert.KernelIdeal.Block
open Idealize.ShloMosaic.Pipeline (Dat)

variable (m : (ℓ : Loc nD τ sig) → Buf (Elt Ideal) ℓ) (ρ : Dev nD → PrngReg)

/-- The printed index maps over the 64 points: windows 0 and 5 are at block (t, 0), the others at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array row under row r of point t's block. -/
def arow (t : Fin cfg0.N) (r : Fin 512) : Fin 32768 :=
  ⟨t.val * 512 + r.val, by have ht := t.isLt; have hN : cfg0.N = 64 := N_0; have := r.isLt; omega⟩

/-! ## The input windows' blocks -/

theorem blk0 (c : Dev nD) (t : Fin cfg0.N) (r : Fin 512) (k : Fin 4096) :
    (iblk m c 0 t : S512x4096.Idx → EReal) (ix2 r k) = m ((c : Thread nD τ).loc main_arg0) (ix2 (arow t r) k) := by
  obtain ⟨e0, e1, -⟩ := idx_facts t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 512 + 1 * r.val = t.val * 512 + r.val; rw [e0]; omega
  | ⟨1, _⟩ => show win0_0.index t (1 : Fin 2) * 4096 + 1 * k.val = k.val; rw [e1]; omega

theorem blk1 (c : Dev nD) (t : Fin cfg0.N) (p : Fin 32) (k : Fin 4096) :
    (iblk m c 1 t : S32x4096.Idx → EReal) (ix2 p k) = V m c main_v0 (ix2 p k) := by
  obtain ⟨-, -, e0, e1, -⟩ := idx_facts t
  show V m c main_v0 (((cfg0.win 1).blk t).view.emb (ix2 p k)) = _
  refine congrArg (V m c main_v0) (funext fun a => Fin.ext ?_)
  match a with
  | ⟨0, _⟩ => show win0_1.index t (0 : Fin 2) * 32 + 1 * p.val = p.val; rw [e0]; omega
  | ⟨1, _⟩ => show win0_1.index t (1 : Fin 2) * 4096 + 1 * k.val = k.val; rw [e1]; omega

theorem blk2 (c : Dev nD) (t : Fin cfg0.N) (z : Fin 1) (p : Fin 32) :
    (iblk m c 2 t : S1x32.Idx → EReal) (ix2 z p) = V m c main_v2 (ix2 z p) := by
  obtain ⟨-, -, -, -, e0, e1, -⟩ := idx_facts t
  show V m c main_v2 (((cfg0.win 2).blk t).view.emb (ix2 z p)) = _
  refine congrArg (V m c main_v2) (funext fun a => Fin.ext ?_)
  match a with
  | ⟨0, _⟩ => show win0_2.index t (0 : Fin 2) * 1 + 1 * z.val = z.val; rw [e0]; omega
  | ⟨1, _⟩ => show win0_2.index t (1 : Fin 2) * 32 + 1 * p.val = p.val; rw [e1]; omega

theorem blk3 (c : Dev nD) (t : Fin cfg0.N) (z : Fin 1) (k : Fin 4096) :
    (iblk m c 3 t : S1x4096.Idx → EReal) (ix2 z k) = V m c main_v3 (ix2 z k) := by
  obtain ⟨-, -, -, -, -, -, e0, e1, -⟩ := idx_facts t
  show V m c main_v3 (((cfg0.win 3).blk t).view.emb (ix2 z k)) = _
  refine congrArg (V m c main_v3) (funext fun a => Fin.ext ?_)
  match a with
  | ⟨0, _⟩ => show win0_3.index t (0 : Fin 2) * 1 + 1 * z.val = z.val; rw [e0]; omega
  | ⟨1, _⟩ => show win0_3.index t (1 : Fin 2) * 4096 + 1 * k.val = k.val; rw [e1]; omega

theorem blk4 (c : Dev nD) (t : Fin cfg0.N) (z : Fin 1) (k : Fin 4096) :
    (iblk m c 4 t : S1x4096.Idx → EReal) (ix2 z k) = V m c main_v4 (ix2 z k) := by
  obtain ⟨-, -, -, -, -, -, -, -, e0, e1, -⟩ := idx_facts t
  show V m c main_v4 (((cfg0.win 4).blk t).view.emb (ix2 z k)) = _
  refine congrArg (V m c main_v4) (funext fun a => Fin.ext ?_)
  match a with
  | ⟨0, _⟩ => show win0_4.index t (0 : Fin 2) * 1 + 1 * z.val = z.val; rw [e0]; omega
  | ⟨1, _⟩ => show win0_4.index t (1 : Fin 2) * 4096 + 1 * k.val = k.val; rw [e1]; omega

/-! ## The arrays the host writes before the region -/

theorem V_v0 (c : Dev nD) : (V m c main_v0 : S32x4096.Idx → EReal)
    = concatenate S32x4096 0 [⟨S16x4096, m ((c : Thread nD τ).loc main_arg1)⟩, ⟨S16x4096, m ((c : Thread nD τ).loc main_arg3)⟩]
        concatenates_S16x4096_S16x4096_S32x4096_d0 := by
  dsimp only [Gen.V, Gen.hostOps0]
  after_results
  try rfl

theorem V_v2 (c : Dev nD) : (V m c main_v2 : S1x32.Idx → EReal)
    = shapeCast S1x32 (concatenate S32 0 [⟨S16, m ((c : Thread nD τ).loc main_arg2)⟩, ⟨S16, m ((c : Thread nD τ).loc main_arg4)⟩]
        concatenates_S16_S16_S32_d0) shapeCasts_S32_S1x32 := by
  dsimp only [Gen.V, Gen.hostOps0]
  after_results
  try rfl

theorem V_v3 (c : Dev nD) : (V m c main_v3 : S1x4096.Idx → EReal)
    = shapeCast S1x4096 (m ((c : Thread nD τ).loc main_arg5)) shapeCasts_S4096_S1x4096 := by
  dsimp only [Gen.V, Gen.hostOps0]
  after_results
  try rfl

theorem V_v4 (c : Dev nD) : (V m c main_v4 : S1x4096.Idx → EReal)
    = shapeCast S1x4096 (m ((c : Thread nD τ).loc main_arg6)) shapeCasts_S4096_S1x4096 := by
  dsimp only [Gen.V, Gen.hostOps0]
  after_results
  try rfl

/-- Rows 0–15 of the stacked weights are the first weight matrix, -/
theorem V0lo (c : Dev nD) (p : Fin 16) (k : Fin 4096) :
    (V m c main_v0 : S32x4096.Idx → EReal) (ix2 ⟨p.val, by have := p.isLt; omega⟩ k) = m ((c : Thread nD τ).loc main_arg1) (ix2 p k) := by
  rw [V_v0]
  exact concatenate_pair_apply_left (t := S32x4096) (s₁ := S16x4096) (s₂ := S16x4096) (0 : Fin 2) _ _ _
    (ix2 (⟨p.val, by have := p.isLt; omega⟩ : Fin 32) k) rfl (ix2 p k)
    (fun b => match b with
      | ⟨0, _⟩ => rfl
      | ⟨1, _⟩ => rfl)

/-- and rows 16–31 the second. -/
theorem V0hi (c : Dev nD) (p : Fin 16) (k : Fin 4096) :
    (V m c main_v0 : S32x4096.Idx → EReal) (ix2 ⟨16 + p.val, by have := p.isLt; omega⟩ k) = m ((c : Thread nD τ).loc main_arg3) (ix2 p k) := by
  rw [V_v0]
  exact concatenate_pair_apply_right (t := S32x4096) (s₁ := S16x4096) (s₂ := S16x4096) (0 : Fin 2) _ _ _
    (ix2 (⟨16 + p.val, by have := p.isLt; omega⟩ : Fin 32) k) rfl rfl (ix2 p k)
    (fun b hb => match b, hb with
      | ⟨0, _⟩, hb => absurd rfl hb
      | ⟨1, _⟩, _ => rfl)
    (by show p.val + 16 = 16 + p.val; omega)

/-- Entries 0–15 of the stacked bias row are the first bias vector, -/
theorem V2lo (c : Dev nD) (p : Fin 16) :
    (V m c main_v2 : S1x32.Idx → EReal) (ix2 0 ⟨p.val, by have := p.isLt; omega⟩) = m ((c : Thread nD τ).loc main_arg2) (ix1 p) := by
  rw [V_v2]
  refine (shapeCast_apply _ _ _ (ix1 (⟨p.val, by have := p.isLt; omega⟩ : Fin 32)) (by
    rw [Shape.rowMajor_val_one, Shape.rowMajor_val_two]
    show p.val = 0 * 32 + p.val
    omega)).trans ?_
  exact concatenate_pair_apply_left (t := S32) (s₁ := S16) (s₂ := S16) (0 : Fin 1) _ _ _
    (ix1 (⟨p.val, by have := p.isLt; omega⟩ : Fin 32)) rfl (ix1 p)
    (fun b => match b with
      | ⟨0, _⟩ => rfl)

/-- and entries 16–31 the second. -/
theorem V2hi (c : Dev nD) (p : Fin 16) :
    (V m c main_v2 : S1x32.Idx → EReal) (ix2 0 ⟨16 + p.val, by have := p.isLt; omega⟩) = m ((c : Thread nD τ).loc main_arg4) (ix1 p) := by
  rw [V_v2]
  refine (shapeCast_apply _ _ _ (ix1 (⟨16 + p.val, by have := p.isLt; omega⟩ : Fin 32)) (by
    rw [Shape.rowMajor_val_one, Shape.rowMajor_val_two]
    show 16 + p.val = 0 * 32 + (16 + p.val)
    omega)).trans ?_
  exact concatenate_pair_apply_right (t := S32) (s₁ := S16) (s₂ := S16) (0 : Fin 1) _ _ _
    (ix1 (⟨16 + p.val, by have := p.isLt; omega⟩ : Fin 32)) rfl rfl (ix1 p)
    (fun b hb => match b, hb with
      | ⟨0, _⟩, hb => absurd rfl hb)
    (by show p.val + 16 = 16 + p.val; omega)

/-- The γ row is γ, -/
theorem V3 (c : Dev nD) (k : Fin 4096) : (V m c main_v3 : S1x4096.Idx → EReal) (ix2 0 k) = m ((c : Thread nD τ).loc main_arg5) (ix1 k) := by
  rw [V_v3]
  exact shapeCast_apply _ _ _ (ix1 k) (by
    rw [Shape.rowMajor_val_one, Shape.rowMajor_val_two]
    show k.val = 0 * 4096 + k.val
    omega)

/-- and the β row is β. -/
theorem V4 (c : Dev nD) (k : Fin 4096) : (V m c main_v4 : S1x4096.Idx → EReal) (ix2 0 k) = m ((c : Thread nD τ).loc main_arg6) (ix1 k) := by
  rw [V_v4]
  exact shapeCast_apply _ _ _ (ix1 k) (by
    rw [Shape.rowMajor_val_one, Shape.rowMajor_val_two]
    show k.val = 0 * 4096 + k.val
    omega)

/-! ## What a point writes back, and the whole array -/

/-- The specification's result of the seven arguments as launched. -/
abbrev Gm (c : Dev nD) : S32768x4096.Idx → EReal :=
  G (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The output's buffer after the body at point t, at (r, q): the specification at row 512·t + r. -/
theorem point_eq (c : Dev nD) (t : Fin cfg0.N) (r : Fin 512) (q : Fin 4096) :
    out0_5 (F := Ideal) (iblk m c 0 t) (iblk m c 1 t) (iblk m c 2 t) (iblk m c 3 t) (iblk m c 4 t) (ix2 r q)
      = Gm m c (ix2 (arow t r) q) := by
  refine (out0_5_at (iblk m c 0 t) (iblk m c 1 t) (iblk m c 2 t) (iblk m c 3 t) (iblk m c 4 t) r q).trans ?_
  unfold sK
  simp only [blk0 m c t, blk1 m c t, blk2 m c t, blk3 m c t, blk4 m c t, V0lo m c, V0hi m c, V2lo m c, V2hi m c,
    V3 m c, V4 m c]
  rfl

/-- WHAT POINT t WRITES BACK is block t of `G` of the arguments. -/
theorem flushed5_eq (c : Dev nD) (t : Fin cfg0.N) :
    (dats m 0 c).flushed 5 t = ((cfg0.win 5).blk t).view.read (Elt Ideal) (Gm m c) := by
  rw [Value.flushed5]
  refine funext fun (y : S512x4096.Idx) => ?_
  obtain ⟨r, q, rfl⟩ : ∃ (r : Fin 512) (q : Fin 4096), y = ix2 r q := ⟨y 0, y 1, eq_ix2 y⟩
  show out0_5 (F := Ideal) (iblk m c 0 t) (iblk m c 1 t) (iblk m c 2 t) (iblk m c 3 t) (iblk m c 4 t) (ix2 r q)
      = Gm m c (((cfg0.win 5).blk t).view.emb (ix2 r q))
  have he : ((cfg0.win 5).blk t).view.emb (ix2 r q : S512x4096.Idx) = (ix2 (arow t r) q : S32768x4096.Idx) := by
    obtain ⟨-, -, -, -, -, -, -, -, -, -, e0, e1⟩ := idx_facts t
    funext a
    apply Fin.ext
    match a with
    | ⟨0, _⟩ => show win0_5.index t (0 : Fin 2) * 512 + 1 * r.val = t.val * 512 + r.val; rw [e0]; omega
    | ⟨1, _⟩ => show win0_5.index t (1 : Fin 2) * 4096 + 1 * q.val = q.val; rw [e1]; omega
  rw [he]
  exact point_eq m c t r q

/-- An index of the array is in point t's block iff each coordinate is in the block's range on its axis. -/
theorem mem_blk5 (t : Fin cfg0.N) (i : S32768x4096.Idx) :
    i ∈ ((cfg0.win 5).blk t).view.set ↔ ∀ a : Fin 2, win0_5.index t a * S512x4096.size a ≤ (i a).val
      ∧ (i a).val < win0_5.index t a * S512x4096.size a + S512x4096.size a := by
  show i ∈ ((View.whole main_v5).slice (win0_5.rect t)).set ↔ _
  rw [View.set_slice_whole, Rect.mem_set_unit]
  exact Iff.rfl

/-- Every index of the array is in the block of the point its row falls in: row i₀ in point i₀ / 512. -/
theorem cover5 (i : S32768x4096.Idx) :
    ∃ t : Fin cfg0.N, (cfg0.win 5).flush t = true ∧ i ∈ ((cfg0.win 5).blk t).view.set := by
  have hi0 : (i 0).val < 32768 := (i 0).isLt
  have hi1 : (i 1).val < 4096 := (i 1).isLt
  have hN : cfg0.N = 64 := N_0
  obtain ⟨t, ht⟩ : ∃ t : Fin cfg0.N, t.val = (i 0).val / 512 := ⟨⟨(i 0).val / 512, by rw [hN]; omega⟩, rfl⟩
  refine ⟨t, flush0_5 t, ?_⟩
  rw [mem_blk5]
  obtain ⟨-, -, -, -, -, -, -, -, -, -, e0, e1⟩ := idx_facts t
  intro a
  match a with
  | ⟨0, _⟩ =>
    show win0_5.index t (0 : Fin 2) * 512 ≤ (i 0).val ∧ (i 0).val < win0_5.index t (0 : Fin 2) * 512 + 512
    rw [e0, ht]
    omega
  | ⟨1, _⟩ =>
    show win0_5.index t (1 : Fin 2) * 4096 ≤ (i 1).val ∧ (i 1).val < win0_5.index t (1 : Fin 2) * 4096 + 4096
    rw [e1]
    omega

/-- THE ARRAY after the run is `G` of the arguments. -/
theorem final5 (c : Dev nD) : (dats m 0 c).arrAt 5 cfg0.N = Gm m c :=
  (dats m 0 c).arrAt_eq_of_cover 5 (Gm m c) (fun t _ => flushed5_eq m c t) cover5

/-- The kernel's run: every weakly fair execution ends with the result array at `G` of the arguments as launched,
    and the arguments unchanged. -/
theorem run : θ_run defs (onTc (τ := τ) (main (F := Ideal))) ⟨m, fun _ => 0, ρ⟩ fun r => ∀ c : Dev nD,
      r.2.mem ((c : Thread nD τ).loc main_v5) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final5 m c), (h c).2⟩) (Value.run_blocks m ρ)

end Cert.KernelIdeal.Arr

end
-- ==== Proof.RefRow.lean ====
/-
  The reference's run, read one row at a time on the extended reals.

  The reference multiplies the input by each transposed weight matrix, adds the bias, and goes through the same chain
  as the kernel on whole [32768, ·] arrays with keepdims columns broadcast back. Read at row r the stages are: the two
  logits of plane p (an inner product of row r with weight row p, plus the bias), the plane's alignment, the sum of the
  sixteen alignments (computed twice by the program, from the same alignments), the gain, the scaled row, its mean,
  its variance, and the result — the specification's `rowRes` of row r. Two spellings differ from the kernel's and are
  equal on every extended real: a sum started from the zero word, and the negation `−y` against `0 − y`.
-/
import proofs.«103125_j3195455668481_2_alg».proof.Proof.Gen.ReferenceIdeal.Read
import proofs.«103125_j3195455668481_2_alg».proof.Proof.Spec

noncomputable section

namespace Cert.ReferenceIdeal.Bridge

open Cert.ReferenceIdeal Cert.ReferenceIdeal.Gen Cert.ReferenceIdeal.Read Idealize.ShloMosaic Idealize.ShloMosaic.ValueIdx Cert.Spec

/-- softplus as the host spells it (the unordered comparison, `negate` of the absolute value) is the specification's. -/
theorem softplus_host (a : EReal) :
    Scalar.select (Ideal.cmp .une (a - Ideal.ofBits .f32 0x00000000#32) (a - Ideal.ofBits .f32 0x00000000#32))
      (a + Ideal.ofBits .f32 0x00000000#32)
      (max a (Ideal.ofBits .f32 0x00000000#32)
        + Ideal.log1p (Ideal.exp (-(max (a - Ideal.ofBits .f32 0x00000000#32) (-(a - Ideal.ofBits .f32 0x00000000#32))))))
      = softplus a := by
  unfold softplus
  rw [Cert.Spec.neg_eq_zero_sub (max (a - Ideal.ofBits .f32 0x00000000#32) (-(a - Ideal.ofBits .f32 0x00000000#32)))]
  rfl

/-- A host mean: the sum started from the zero word, over 4096. -/
theorem mean_host (f : Fin 4096 → EReal) :
    Ideal.div (Ideal.ofBits .f32 0x00000000#32 + ∑ q : Fin 4096, f q) (Ideal.ofBits .f32 0x45800000#32) = mean f := by
  unfold mean
  rw [zero_add_sum]

variable (x0 : (⟨S32768x4096, .f32⟩ : BufTy).Contents (Elt Ideal)) (x1 : (⟨S16x4096, .f32⟩ : BufTy).Contents (Elt Ideal)) (x2 : (⟨S16, .f32⟩ : BufTy).Contents (Elt Ideal)) (x3 : (⟨S16x4096, .f32⟩ : BufTy).Contents (Elt Ideal)) (x4 : (⟨S16, .f32⟩ : BufTy).Contents (Elt Ideal)) (x5 : (⟨S4096, .f32⟩ : BufTy).Contents (Elt Ideal)) (x6 : (⟨S4096, .f32⟩ : BufTy).Contents (Elt Ideal))

/-- Row r of the input. -/
abbrev row (r : Fin 32768) : Fin 4096 → EReal := fun k => x0 (ix2 r k)

/-- The sum of the sixteen alignments of row r, from the reference's arguments. -/
abbrev sR (r : Fin 32768) : EReal :=
  alignSum (row x0 r) (fun p k => x1 (ix2 p k)) (fun p k => x3 (ix2 p k)) (fun p => x2 (ix1 p)) (fun p => x4 (ix1 p))

/-- The first logit of plane p of row r. -/
theorem logitR (r : Fin 32768) (p : Fin 16) :
    val_main_v4 (F := Ideal) x0 x1 x2 (ix2 r p) = dotRow (row x0 r) (fun k => x1 (ix2 p k)) + x2 (ix1 p) := by
  have ea (k : Fin 4096) : lidx_main_v1 (ix2 r p : S32768x16.Idx) k = ix2 r k := funext fun a => Fin.ext (by
    match a with
    | ⟨0, _⟩ => rfl
    | ⟨1, _⟩ => rfl)
  have eb (k : Fin 4096) : idx_main_v0 (ridx_main_v1 (ix2 r p : S32768x16.Idx) k) = ix2 p k := funext fun a => Fin.ext (by
    match a with
    | ⟨0, _⟩ => rfl
    | ⟨1, _⟩ => rfl)
  have ec : idx_main_v2 (idx_main_v3 (ix2 r p : S32768x16.Idx)) = ix1 p := funext fun a => Fin.ext (by
    match a with
    | ⟨0, _⟩ => rfl)
  rw [val_main_v4_apply, val_main_v1_apply, val_main_v3_apply, val_main_v2_apply]
  simp only [val_main_v0_apply, ea, eb, ec]
  rfl

/-- The second logit of plane p of row r. -/
theorem logitO (r : Fin 32768) (p : Fin 16) :
    val_main_v12 (F := Ideal) x0 x3 x4 (ix2 r p) = dotRow (row x0 r) (fun k => x3 (ix2 p k)) + x4 (ix1 p) := by
  have ea (k : Fin 4096) : lidx_main_v9 (ix2 r p : S32768x16.Idx) k = ix2 r k := funext fun a => Fin.ext (by
    match a with
    | ⟨0, _⟩ => rfl
    | ⟨1, _⟩ => rfl)
  have eb (k : Fin 4096) : idx_main_v8 (ridx_main_v9 (ix2 r p : S32768x16.Idx) k) = ix2 p k := funext fun a => Fin.ext (by
    match a with
    | ⟨0, _⟩ => rfl
    | ⟨1, _⟩ => rfl)
  have ec : idx_main_v10 (idx_main_v11 (ix2 r p : S32768x16.Idx)) = ix1 p := funext fun a => Fin.ext (by
    match a with
    | ⟨0, _⟩ => rfl)
  rw [val_main_v12_apply, val_main_v9_apply, val_main_v11_apply, val_main_v10_apply]
  simp only [val_main_v8_apply, ea, eb, ec]
  rfl

/-- The alignment of plane p of row r. -/
theorem alignR (r : Fin 32768) (p : Fin 16) :
    val_main_v17 (F := Ideal) x0 x1 x2 x3 x4 (ix2 r p)
      = align (dotRow (row x0 r) (fun k => x1 (ix2 p k)) + x2 (ix1 p)) (dotRow (row x0 r) (fun k => x3 (ix2 p k)) + x4 (ix1 p)) := by
  simp only [val_main_v17_apply, val_main_v16_apply, val_main_v7_apply, val_main_v15_apply, val_main_v5_apply,
    val_main_v13_apply, val_main_v6_apply, val_main_v14_apply, val_main_cst_apply, val_main_cst_0_apply]
  rw [logitR, logitO]
  rfl

/-- The sum of the alignments of row r, as the program first computes it (for the mean), -/
theorem sumR (r : Fin 32768) : val_main_v18 (F := Ideal) x0 x1 x2 x3 x4 (ix1 r) = sR x0 x1 x2 x3 x4 r := by
  have ea (k : Fin 16) : idx_main_v18 (ix1 r : S32768.Idx) k = ix2 r k := funext fun a => Fin.ext (by
    match a with
    | ⟨0, _⟩ => rfl
    | ⟨1, _⟩ => rfl)
  rw [val_main_v18_apply, val_main_cst_1_apply]
  simp only [ea, alignR]
  exact zero_add_sum _

/-- and as it computes it again (for the scaling): the same sum. -/
theorem sumR' (r : Fin 32768) : val_main_v25 (F := Ideal) x0 x1 x2 x3 x4 (ix1 r) = sR x0 x1 x2 x3 x4 r := by
  have ea (k : Fin 16) : idx_main_v25 (ix1 r : S32768.Idx) k = ix2 r k := funext fun a => Fin.ext (by
    match a with
    | ⟨0, _⟩ => rfl
    | ⟨1, _⟩ => rfl)
  rw [val_main_v25_apply, val_main_cst_4_apply]
  simp only [ea, alignR]
  exact zero_add_sum _

/-- The gain of row r. -/
theorem gainR (r : Fin 32768) : val_main_v24 (F := Ideal) x0 x1 x2 x3 x4 (ix2 r 0) = gain (sR x0 x1 x2 x3 x4 r) := by
  have ea : idx_main_v19 (ix2 r 0 : S32768x1.Idx) = ix1 r := funext fun a => Fin.ext (by
    match a with
    | ⟨0, _⟩ => rfl)
  simp only [val_main_v24_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, val_main_v23_apply, val_main_v21_apply, val_main_v22_apply,
    val_main_cst_3_apply, val_main_v20_apply, val_main_cst_2_apply, val_main_v19_apply]
  rw [ea, sumR]
  unfold gain
  exact softplus_host _

/-- The scaled row r at q. -/
theorem outR (r : Fin 32768) (q : Fin 4096) :
    val_main_v32 (F := Ideal) x0 x1 x2 x3 x4 (ix2 r q) = rowOut (row x0 r) (sR x0 x1 x2 x3 x4 r) q := by
  have ea : idx_main_v26 (idx_main_v27 (ix2 r q : S32768x4096.Idx)) = ix1 r := funext fun a => Fin.ext (by
    match a with
    | ⟨0, _⟩ => rfl)
  have eb : idx_main_v29 (ix2 r q : S32768x4096.Idx) = ix2 r 0 := funext fun a => Fin.ext (by
    match a with
    | ⟨0, _⟩ => rfl
    | ⟨1, _⟩ => rfl)
  simp only [val_main_v32_apply, val_main_v30_apply, val_main_v28_apply, val_main_v27_apply, val_main_v26_apply,
    val_main_v29_apply, val_main_v31_apply, val_main_cst_5_apply]
  rw [ea, eb, sumR', gainR]
  rfl

/-- The mean of the scaled row r. -/
theorem meanR (r : Fin 32768) :
    val_main_v36 (F := Ideal) x0 x1 x2 x3 x4 (ix2 r 0) = mean (rowOut (row x0 r) (sR x0 x1 x2 x3 x4 r)) := by
  have ea (k : Fin 4096) : idx_main_v33 (idx_main_v34 (ix2 r 0 : S32768x1.Idx)) k = ix2 r k := funext fun a => Fin.ext (by
    match a with
    | ⟨0, _⟩ => rfl
    | ⟨1, _⟩ => rfl)
  simp only [val_main_v36_apply, val_main_v34_apply, val_main_v35_apply, val_main_cst_7_apply]
  rw [val_main_v33_apply, val_main_cst_6_apply]
  simp only [ea, outR]
  exact mean_host _

/-- The variance of the scaled row r. -/
theorem varR (r : Fin 32768) :
    val_main_v43 (F := Ideal) x0 x1 x2 x3 x4 (ix2 r 0) = variance (rowOut (row x0 r) (sR x0 x1 x2 x3 x4 r)) := by
  have ea (k : Fin 4096) : idx_main_v40 (idx_main_v41 (ix2 r 0 : S32768x1.Idx)) k = ix2 r k := funext fun a => Fin.ext (by
    match a with
    | ⟨0, _⟩ => rfl
    | ⟨1, _⟩ => rfl)
  have eb (k : Fin 4096) : idx_main_v37 (ix2 r k : S32768x4096.Idx) = ix2 r 0 := funext fun a => Fin.ext (by
    match a with
    | ⟨0, _⟩ => rfl
    | ⟨1, _⟩ => rfl)
  simp only [val_main_v43_apply, val_main_v41_apply, val_main_v42_apply, val_main_cst_9_apply]
  rw [val_main_v40_apply, val_main_cst_8_apply]
  simp only [ea, val_main_v39_apply, val_main_v38_apply, val_main_v37_apply, eb, outR, meanR]
  unfold variance
  exact mean_host _

/-- THE REFERENCE AT AN ENTRY: its result at (r, q) is the specification's row result. -/
theorem resR (r : Fin 32768) (q : Fin 4096) :
    val_main_v57 (F := Ideal) x0 x1 x2 x3 x4 x5 x6 (ix2 r q)
      = rowRes (row x0 r) (sR x0 x1 x2 x3 x4 r) (fun k => x5 (ix1 k)) (fun k => x6 (ix1 k)) q := by
  have ea : idx_main_v44 (ix2 r q : S32768x4096.Idx) = ix2 r 0 := funext fun a => Fin.ext (by
    match a with
    | ⟨0, _⟩ => rfl
    | ⟨1, _⟩ => rfl)
  have eb : idx_main_v49 (ix2 r q : S32768x4096.Idx) = ix2 r 0 := funext fun a => Fin.ext (by
    match a with
    | ⟨0, _⟩ => rfl
    | ⟨1, _⟩ => rfl)
  have ec : idx_main_v51 (idx_main_v52 (ix2 r q : S32768x4096.Idx)) = ix1 q := funext fun a => Fin.ext (by
    match a with
    | ⟨0, _⟩ => rfl)
  have ed : idx_main_v54 (idx_main_v55 (ix2 r q : S32768x4096.Idx)) = ix1 q := funext fun a => Fin.ext (by
    match a with
    | ⟨0, _⟩ => rfl)
  simp only [val_main_v57_apply, val_main_v56_apply, val_main_v53_apply, val_main_v50_apply, val_main_v45_apply,
    val_main_v44_apply, val_main_v49_apply, val_main_v48_apply, val_main_v47_apply, val_main_v46_apply,
    val_main_cst_10_apply, val_main_v52_apply, val_main_v51_apply, val_main_v55_apply, val_main_v54_apply]
  rw [ea, eb, ec, ed, outR, meanR, varR]
  rfl

/-- The reference's result array is the specification's `G` of its arguments. -/
theorem val_eq_G : val_main_v57 (F := Ideal) x0 x1 x2 x3 x4 x5 x6 = G x0 x1 x2 x3 x4 x5 x6 := by
  funext i
  obtain ⟨r, q, rfl⟩ : ∃ (r : Fin 32768) (q : Fin 4096), i = ix2 r q := ⟨i 0, i 1, eq_ix2 i⟩
  rw [resR]
  rfl

end Cert.ReferenceIdeal.Bridge

end
-- ==== Proof.lean ====
/-
  A row-wise "phase resonance" gain followed by LayerNorm, added back to the input: the kernel against its reference,
  on the extended reals.

  For each of the 32768 rows x of the input, sixteen planes each give two logits (inner products of x with a weight
  row, plus a bias), a phase tanh(·)·π from each, and the cosine of the phase difference; s is the sum of the sixteen
  cosines. The row is scaled to o = x · s · softplus(s/16 + 1/2) / 16, normalised over its 4096 entries with
  rsqrt(variance + ε), scaled by γ, shifted by β, and added to x.

  The kernel does this a tile of 512 rows at a time with the two weight matrices stacked into one [32, 4096] operand
  (one matrix product, then the logits of a row split into its first and last sixteen) and one shared sum s; the
  reference does it on whole arrays with two matrix products and computes the same sum twice. On the extended reals a
  matrix product is the sum over the contracted coordinate on either side, a lane sum and a host sum are the same
  finite sum, and every elementwise operation is the same function in both programs, so both compute the one function
  `Spec.G` of the seven arguments, entry by entry. No algebraic law beyond `0 + y = y` and `−y = 0 − y` is used, so
  the finiteness of the inputs is never opened.

  The three frames are the generated ones (the reference's is its generated run with the result dropped); the
  idealized kernel is the kernel's own operations read on the extended reals, none rewritten, so `preserves` is trivial.
-/
import proofs.«103125_j3195455668481_2_alg».proof.Defs
import proofs.«103125_j3195455668481_2_alg».proof.Proof.Gen.Kernel
import proofs.«103125_j3195455668481_2_alg».proof.Proof.Gen.Kernel.Frame
import proofs.«103125_j3195455668481_2_alg».proof.Proof.Gen.KernelIdeal
import proofs.«103125_j3195455668481_2_alg».proof.Proof.Gen.KernelIdeal.Frame
import proofs.«103125_j3195455668481_2_alg».proof.Proof.Gen.ReferenceIdeal
import proofs.«103125_j3195455668481_2_alg».proof.Proof.Gen.Pre_finite_inputs
import proofs.«103125_j3195455668481_2_alg».proof.Proof.Gen.KernelIdeal.Value
import proofs.«103125_j3195455668481_2_alg».proof.Proof.Gen.ReferenceIdeal.Run
import proofs.«103125_j3195455668481_2_alg».proof.Proof.Gen.ReferenceIdeal.Read
import proofs.«103125_j3195455668481_2_alg».proof.Proof.KernelArray
import proofs.«103125_j3195455668481_2_alg».proof.Proof.RefRow
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten in its idealization. -/
theorem preserves : Cert.preserves_Kernel_KernelIdeal := trivial

/-- Both programs end with the result array at `Spec.G` of the arguments: the kernel by its blocks (each point writes
    block t of `G`, and the blocks cover the array), the reference by its run read row by row; the arguments agree. -/
theorem algebraic : Cert.algebraic_KernelIdeal_ReferenceIdeal := by
  intro m ρ m' ρ' _ hagree
  refine ⟨fun c => Cert.KernelIdeal.Arr.Gm m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.ReferenceIdeal.Bridge.val_eq_G, (hagree c).1, (hagree c).2.1,
    (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
